-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_v11) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1x1024 : Shape := ⟨3, ![32, 1, 1024]⟩
abbrev S32x4096x1024 : Shape := ⟨3, ![32, 4096, 1024]⟩
abbrev S_ : Shape := ⟨0, ![]⟩

class Facts : Prop where
  bcast_S_S32x1x1024 : S_.BroadcastsInDim S32x1x1024 (![] : Fin 0 → Fin S32x1x1024.rank)
  reducesTo_S32x1x1024_S_d0_1_2 : S32x1x1024.ReducesTo [0, 1, 2] S_
  h_S_ : 0 < S_.numel
  bcast_S_S32x4096x1024 : S_.BroadcastsInDim S32x4096x1024 (![] : Fin 0 → Fin S32x4096x1024.rank)
  reducesTo_S32x4096x1024_S_d0_1_2 : S32x4096x1024.ReducesTo [0, 1, 2] S_

variable [Facts]

def fn {F : FTy → Type} [FloatOps F] (main_arg0 : FVec F S32x1x1024 .f32) (main_arg1 : FVec F S32x4096x1024 .f32) : IVec S_ 1 :=
  let main_v0 : FVec F S32x1x1024 .f32 := Host.absf main_arg0
  let main_cst : FVec F S_ .f32 := constant S_ .f32 0x7F800000#32
  let main_v1 : FVec F S32x1x1024 .f32 := broadcastInDim S32x1x1024 ![] bcast_S_S32x1x1024 main_cst
  let main_v2 : IVec S32x1x1024 1 := cmpf .olt main_v0 main_v1
  let main_c : IVec S_ 1 := constantI S_ 1 1#1
  let main_v3 : IVec S_ 1 := (fun x v => Host.reduce IntOp.andi x v reducesTo_S32x1x1024_S_d0_1_2 h_S_) main_v2 main_c
  let main_v4 : FVec F S32x4096x1024 .f32 := Host.absf main_arg1
  let main_cst_0 : FVec F S_ .f32 := constant S_ .f32 0x7F800000#32
  let main_v5 : FVec F S32x4096x1024 .f32 := broadcastInDim S32x4096x1024 ![] bcast_S_S32x4096x1024 main_cst_0
  let main_v6 : IVec S32x4096x1024 1 := cmpf .olt main_v4 main_v5
  let main_c_1 : IVec S_ 1 := constantI S_ 1 1#1
  let main_v7 : IVec S_ 1 := (fun x v => Host.reduce IntOp.andi x v reducesTo_S32x4096x1024_S_d0_1_2 h_S_) main_v6 main_c_1
  let main_v8 : IVec S_ 1 := andi main_v3 main_v7
  main_v8
-- ==== Kernel.lean ====
abbrev S32x1x1024 : Shape := ⟨3, ![32, 1, 1024]⟩
abbrev S32x4096x1024 : Shape := ⟨3, ![32, 4096, 1024]⟩
abbrev S32x1x4096 : Shape := ⟨3, ![32, 1, 4096]⟩
abbrev S1x1x1024 : Shape := ⟨3, ![1, 1, 1024]⟩
abbrev S1x4096x1024 : Shape := ⟨3, ![1, 4096, 1024]⟩
abbrev S1x1x4096 : Shape := ⟨3, ![1, 1, 4096]⟩
abbrev S1x1 : Shape := ⟨2, ![1, 1]⟩
abbrev S1x1x1 : Shape := ⟨3, ![1, 1, 1]⟩

abbrev nBuf : Space → Nat
  | .hbm => 4
  | .vmem => 8
  | .smem => 0
  | _ => 0

abbrev bufTy : (tb : Table) → Fin (tcTables nBuf tb) → BufTy
  | .hbm, ⟨0, _⟩ => ⟨S32x1x1024, .f32⟩
  | .hbm, ⟨1, _⟩ => ⟨S32x4096x1024, .f32⟩
  | .hbm, ⟨2, _⟩ => ⟨S32x1x1024, .f32⟩
  | .hbm, ⟨3, _⟩ => ⟨S32x1x4096, .f32⟩
  | .local _ .vmem, ⟨0, _⟩ => ⟨S1x1x1024, .f32⟩
  | .local _ .vmem, ⟨1, _⟩ => ⟨S1x1x1024, .f32⟩
  | .local _ .vmem, ⟨2, _⟩ => ⟨S1x4096x1024, .f32⟩
  | .local _ .vmem, ⟨3, _⟩ => ⟨S1x4096x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x4096, .f32⟩
  | .local _ .vmem, ⟨7, _⟩ => ⟨S1x1x4096, .f32⟩
  | _, _ => ⟨S32x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4096x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S1x1x1024_S1x1x1024_0_0_0 : ∀ a, (![0, 0, 0] : Fin 3 → Nat) a + S1x1x1024.size a ≤ S1x1x1024.size a
  h_S1x1x1024 : 0 < S1x1x1024.numel
  inb_S1x4096x1024_S1x4096x1024_0_0_0 : ∀ a, (![0, 0, 0] : Fin 3 → Nat) a + S1x4096x1024.size a ≤ S1x4096x1024.size a
  h_S1x4096x1024 : 0 < S1x4096x1024.numel
  reduces_S1x1x4096_S1x1 : S1x1x4096.Reduces [2] S1x1
  shapeCasts_S1x1_S1x1x1 : S1x1.ShapeCasts S1x1x1
  broadcasts_S1x1x1_S1x1x4096 : S1x1x1.Broadcasts S1x1x4096
  inb_S1x1x4096_S1x1x4096_0_0_0 : ∀ a, (![0, 0, 0] : Fin 3 → Nat) a + S1x1x4096.size a ≤ S1x1x4096.size a
  h_S1x1x4096 : 0 < S1x1x4096.numel
  dot_S1x1x1024_S1x4096x1024_S1x1x4096_2_2_1_1_0_0_wf : DotDims.WF S1x1x1024 S1x4096x1024 S1x1x4096 [2] [2] [1] [1] [0] [0]
  dot_S1x1x4096_S1x4096x1024_S1x1x1024_2_1_1_2_0_0_wf : DotDims.WF S1x1x4096 S1x4096x1024 S1x1x1024 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x1024.size a ≤ S32x1x1024.size a
  hwx0_0 : ∀ i : grid0.Coords, EltTy.bits .f32 = 32 ∨ (Rect.block (s := S32x1x1024) S1x1x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x1024.size a ≤ S32x4096x1024.size a
  hwx0_1 : ∀ i : grid0.Coords, EltTy.bits .f32 = 32 ∨ (Rect.block (s := S32x4096x1024) S1x4096x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1024.size a ≤ S32x1x1024.size a
  hwx0_2 : ∀ i : grid0.Coords, EltTy.bits .f32 = 32 ∨ (Rect.block (s := S32x1x1024) S1x1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x4096.size a ≤ S32x1x4096.size a
  hwx0_3 : ∀ i : grid0.Coords, EltTy.bits .f32 = 32 ∨ (Rect.block (s := S32x1x4096) S1x1x4096.size (cc0_transform_3 i) (hinb0_3 i)).WholeWords (EltTy.packing .f32)

variable [Facts₀]

def dot_S1x1x1024_S1x4096x1024_S1x1x4096_2_2_1_1_0_0 : DotDims S1x1x1024 S1x4096x1024 S1x1x4096 where
  lhsContracting := [2]
  rhsContracting := [2]
  lhsNonContracting := [1]
  rhsNonContracting := [1]
  lhsBatch := [0]
  rhsBatch := [0]
  wf := dot_S1x1x1024_S1x4096x1024_S1x1x4096_2_2_1_1_0_0_wf
def dot_S1x1x4096_S1x4096x1024_S1x1x1024_2_1_1_2_0_0 : DotDims S1x1x4096 S1x4096x1024 S1x1x1024 where
  lhsContracting := [2]
  rhsContracting := [1]
  lhsNonContracting := [1]
  rhsNonContracting := [2]
  lhsBatch := [0]
  rhsBatch := [0]
  wf := dot_S1x1x4096_S1x4096x1024_S1x1x1024_2_1_1_2_0_0_wf

abbrev win0_0 : Pipeline.Window sig grid0 :=
  Pipeline.Window.ofSpec (Memref.whole main_arg0) S1x1x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x4096x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x1x1024.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x1x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x1x1024 : Shape := ⟨3, ![32, 1, 1024]⟩
abbrev S32x4096x1024 : Shape := ⟨3, ![32, 4096, 1024]⟩
abbrev S32x1x4096 : Shape := ⟨3, ![32, 1, 4096]⟩
abbrev S_ : Shape := ⟨0, ![]⟩
abbrev S32x1 : Shape := ⟨2, ![32, 1]⟩
abbrev S32x1x1 : Shape := ⟨3, ![32, 1, 1]⟩

abbrev nBuf : Space → Nat
  | .hbm => 19
  | .vmem => 0
  | .smem => 0
  | _ => 0

abbrev bufTy : (tb : Table) → Fin (tcTables nBuf tb) → BufTy
  | .hbm, ⟨0, _⟩ => ⟨S32x1x1024, .f32⟩
  | .hbm, ⟨1, _⟩ => ⟨S32x4096x1024, .f32⟩
  | .hbm, ⟨2, _⟩ => ⟨S32x1x4096, .f32⟩
  | .hbm, ⟨3, _⟩ => ⟨S_, .f32⟩
  | .hbm, ⟨4, _⟩ => ⟨S32x1, .f32⟩
  | .hbm, ⟨5, _⟩ => ⟨S_, .f32⟩
  | .hbm, ⟨6, _⟩ => ⟨S32x1, .f32⟩
  | .hbm, ⟨7, _⟩ => ⟨S32x1, .f32⟩
  | .hbm, ⟨8, _⟩ => ⟨S32x1x1, .f32⟩
  | .hbm, ⟨9, _⟩ => ⟨S32x1x4096, .f32⟩
  | .hbm, ⟨10, _⟩ => ⟨S32x1x4096, .f32⟩
  | .hbm, ⟨11, _⟩ => ⟨S32x1x4096, .f32⟩
  | .hbm, ⟨12, _⟩ => ⟨S_, .f32⟩
  | .hbm, ⟨13, _⟩ => ⟨S32x1, .f32⟩
  | .hbm, ⟨14, _⟩ => ⟨S32x1x1, .f32⟩
  | .hbm, ⟨15, _⟩ => ⟨S32x1x4096, .f32⟩
  | .hbm, ⟨16, _⟩ => ⟨S32x1x4096, .f32⟩
  | .hbm, ⟨17, _⟩ => ⟨S32x1x1024, .f32⟩
  | .hbm, ⟨18, _⟩ => ⟨S32x1x1024, .f32⟩
  | _, _ => ⟨S32x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]

class Facts₀ : Prop where
  reducesTo_S32x1x4096_S32x1_d2 : S32x1x4096.ReducesTo [2] S32x1
  h_S_ : 0 < S_.numel
  bcast_S_S32x1 : S_.BroadcastsInDim S32x1 (![] : Fin 0 → Fin S32x1.rank)
  bcast_S32x1_S32x1x1_0_1 : S32x1.BroadcastsInDim S32x1x1 (![0, 1] : Fin 2 → Fin S32x1x1.rank)
  bcast_S32x1x1_S32x1x4096_0_1_2 : S32x1x1.BroadcastsInDim S32x1x4096 (![0, 1, 2] : Fin 3 → Fin S32x1x4096.rank)
  dot_S32x1x1024_S32x4096x1024_S32x1x4096_2_2_1_1_0_0_wf : DotDims.WF S32x1x1024 S32x4096x1024 S32x1x4096 [2] [2] [1] [1] [0] [0]
  dot_S32x1x4096_S32x4096x1024_S32x1x1024_2_1_1_2_0_0_wf : DotDims.WF S32x1x4096 S32x4096x1024 S32x1x1024 [2] [1] [1] [2] [0] [0]

variable [Facts₀]

def dot_S32x1x1024_S32x4096x1024_S32x1x4096_2_2_1_1_0_0 : DotDims S32x1x1024 S32x4096x1024 S32x1x4096 where
  lhsContracting := [2]
  rhsContracting := [2]
  lhsNonContracting := [1]
  rhsNonContracting := [1]
  lhsBatch := [0]
  rhsBatch := [0]
  wf := dot_S32x1x1024_S32x4096x1024_S32x1x4096_2_2_1_1_0_0_wf
def dot_S32x1x4096_S32x4096x1024_S32x1x1024_2_1_1_2_0_0 : DotDims S32x1x4096 S32x4096x1024 S32x1x1024 where
  lhsContracting := [2]
  rhsContracting := [1]
  lhsNonContracting := [1]
  rhsNonContracting := [2]
  lhsBatch := [0]
  rhsBatch := [0]
  wf := dot_S32x1x4096_S32x4096x1024_S32x1x1024_2_1_1_2_0_0_wf

class Facts : Prop extends Facts₀ where

variable [Facts]
-- ==== Proof.Softmax.lean ====
/-
  Attention of ONE query row against ONE context matrix, on the extended reals.

  For a query row `qr : Fin 1024 → EReal` and a context matrix `cr : Fin 4096 → Fin 1024 → EReal`:
    score s   = ∑ h, qr h · cr s h                     (the row of dot products)
    top       = max (-∞) (the fold of max from -∞ over the scores)
    ex s      = exp (score s - top)
    den       = ∑ s, ex s
    weight s  = ex s / den                              (the softmax weights)
    mix h     = tanh (∑ s, weight s · cr s h)           (the weighted sum of the context's rows, squashed)
  Nothing is assumed of the entries: every operation is the total one on `[-∞, +∞]`, and both programs
  compute exactly these terms, so no law of arithmetic is needed to join them.

  The whole arrays: batch `b` of the result arrays is this attention of batch `b`'s query row and
  context matrix (`attnArr`, `outArr`).
-/
import Idealize.ShloMosaic.PureOps.Ideal
import Idealize.ShloMosaic.Lib.ValueIdx

noncomputable section

namespace Cert.Attn

open Idealize.ShloMosaic Idealize.ShloMosaic.ValueIdx

/-- The value the f32 pattern of `-∞` denotes (both programs start their maximum from it). -/
abbrev negInf : EReal := Ideal.ofBits .f32 0xFF800000#32

variable (qr : Fin 1024 → EReal) (cr : Fin 4096 → Fin 1024 → EReal)

/-- The dot product of the query row with row `s` of the context. -/
def score (s : Fin 4096) : EReal := ∑ h : Fin 1024, qr h * cr s h

/-- The largest score (taken from `-∞`, and once more against `-∞`, as both programs do). -/
def top : EReal := max negInf ((Finset.univ : Finset (Fin 4096)).fold max negInf (score qr cr))

/-- The exponential of a score less the largest. -/
def ex (s : Fin 4096) : EReal := Ideal.exp (score qr cr s - top qr cr)

/-- The sum of the exponentials. -/
def den : EReal := ∑ s : Fin 4096, ex qr cr s

/-- The softmax weight of row `s`. -/
def weight (s : Fin 4096) : EReal := Ideal.div (ex qr cr s) (den qr cr)

/-- Column `h` of the weighted sum of the context's rows, through `tanh`. -/
def mix (h : Fin 1024) : EReal := Ideal.tanh (∑ s : Fin 4096, weight qr cr s * cr s h)

/-! ## The whole arrays -/

abbrev SQ : Shape := ⟨3, ![32, 1, 1024]⟩
abbrev SC : Shape := ⟨3, ![32, 4096, 1024]⟩
abbrev SA : Shape := ⟨3, ![32, 1, 4096]⟩

/-- Batch `b`'s query row. -/
def qRow (q : SQ.Idx → EReal) (b : Fin 32) : Fin 1024 → EReal := fun h => q (ix3 b 0 h)

/-- Batch `b`'s context matrix. -/
def cMat (ctx : SC.Idx → EReal) (b : Fin 32) : Fin 4096 → Fin 1024 → EReal := fun s h => ctx (ix3 b s h)

/-- The attention weights of every batch: entry `(b, 0, s)` is the softmax weight of row `s` in batch `b`. -/
def attnArr (q : SQ.Idx → EReal) (ctx : SC.Idx → EReal) : SA.Idx → EReal :=
  fun i => weight (qRow q (i 0)) (cMat ctx (i 0)) (i 2)

/-- The attended output of every batch: entry `(b, 0, h)` is column `h` of batch `b`'s squashed weighted sum. -/
def outArr (q : SQ.Idx → EReal) (ctx : SC.Idx → EReal) : SQ.Idx → EReal :=
  fun i => mix (qRow q (i 0)) (cMat ctx (i 0)) (i 2)

theorem attnArr_ix3 (q : SQ.Idx → EReal) (ctx : SC.Idx → EReal) (b : Fin 32) (z : Fin 1) (s : Fin 4096) :
    attnArr q ctx (ix3 b z s) = weight (qRow q b) (cMat ctx b) s := rfl

theorem outArr_ix3 (q : SQ.Idx → EReal) (ctx : SC.Idx → EReal) (b : Fin 32) (z : Fin 1) (h : Fin 1024) :
    outArr q ctx (ix3 b z h) = mix (qRow q b) (cMat ctx b) h := rfl

end Cert.Attn

end
-- ==== Proof.KernelBlock.lean ====
/-
  The kernel's body, read on one block.

  At a grid point the body holds one query row `x0` (a [1, 1, 1024] block) and one context matrix `x1`
  (a [1, 4096, 1024] block). It computes the scores by a matrix product into a zero accumulator (contracting
  the feature axis), their maximum over the 4096 positions from `-∞` (and once more against `-∞`), the
  exponentials of the differences, their sum, the quotients — stored as the block of attention weights — and
  a second matrix product (contracting the positions) through `tanh` — stored as the block of outputs.
  Read at the block's coordinates `(0, 0, ·)` each stage is the corresponding term of `Cert.Attn` of the
  row `h ↦ x0 (0, 0, h)` and the matrix `(s, h) ↦ x1 (0, s, h)`: a product into zero is the sum over the
  contracted coordinate, a reduction over the last axis a sum or a fold of `max` over its coordinates, and the
  reshape-and-broadcast of a [1, 1] value along the positions reads that value back.
-/
import proofs.«153136_j1580547970581_2_alg».proof.Proof.Gen.KernelIdeal.Skeleton
import proofs.«153136_j1580547970581_2_alg».proof.Proof.Softmax
import Idealize.ShloMosaic.PureOps.Ideal.Laws
import Idealize.ShloMosaic.Lib.ValueIdx
import Idealize.ShloMosaic.Lib.Pipeline.Value

noncomputable section

namespace Cert.KernelIdeal.Block

open Cert.KernelIdeal Cert.KernelIdeal.Gen Cert.Attn
open Idealize.ShloMosaic Idealize.ShloMosaic.ValueIdx

/-- The first product: query row against context rows, contracting the features. -/
abbrev D1 : DotDims S1x1x1024 S1x4096x1024 S1x1x4096 := dot_S1x1x1024_S1x4096x1024_S1x1x4096_2_2_1_1_0_0
/-- The second product: weights against context rows, contracting the positions. -/
abbrev D2 : DotDims S1x1x4096 S1x4096x1024 S1x1x1024 := dot_S1x1x4096_S1x4096x1024_S1x1x1024_2_1_1_2_0_0

/-! ## The operand indices of the two products -/

theorem d1_lhs0 (i : S1x1x4096.Idx) (q : D1.contr.Idx) : (D1.lhsIdx i q 0).val = (i 0).val := by
  unfold DotDims.lhsIdx
  rw [dif_pos (show (0 : Fin S1x1x1024.rank) ∈ D1.lhsBatch by decide)]
  rfl
theorem d1_lhs1 (i : S1x1x4096.Idx) (q : D1.contr.Idx) : (D1.lhsIdx i q 1).val = (i 1).val := by
  unfold DotDims.lhsIdx
  rw [dif_neg (show ¬(1 : Fin S1x1x1024.rank) ∈ D1.lhsBatch by decide), dif_pos (show (1 : Fin S1x1x1024.rank) ∈ D1.lhsNonContracting by decide)]
  rfl
theorem d1_lhs2 (i : S1x1x4096.Idx) (q : D1.contr.Idx) : (D1.lhsIdx i q 2).val = (q ⟨0, by decide⟩).val :=
  D1.lhsIdx_val_of_single rfl i q
theorem d1_rhs0 (i : S1x1x4096.Idx) (q : D1.contr.Idx) : (D1.rhsIdx i q 0).val = (i 0).val := by
  unfold DotDims.rhsIdx
  rw [dif_pos (show (0 : Fin S1x4096x1024.rank) ∈ D1.rhsBatch by decide)]
  rfl
theorem d1_rhs1 (i : S1x1x4096.Idx) (q : D1.contr.Idx) : (D1.rhsIdx i q 1).val = (i 2).val := by
  unfold DotDims.rhsIdx
  rw [dif_neg (show ¬(1 : Fin S1x4096x1024.rank) ∈ D1.rhsBatch by decide), dif_pos (show (1 : Fin S1x4096x1024.rank) ∈ D1.rhsNonContracting by decide)]
  rfl
theorem d1_rhs2 (i : S1x1x4096.Idx) (q : D1.contr.Idx) : (D1.rhsIdx i q 2).val = (q ⟨0, by decide⟩).val :=
  D1.rhsIdx_val_of_single rfl i q

theorem d2_lhs0 (i : S1x1x1024.Idx) (q : D2.contr.Idx) : (D2.lhsIdx i q 0).val = (i 0).val := by
  unfold DotDims.lhsIdx
  rw [dif_pos (show (0 : Fin S1x1x4096.rank) ∈ D2.lhsBatch by decide)]
  rfl
theorem d2_lhs1 (i : S1x1x1024.Idx) (q : D2.contr.Idx) : (D2.lhsIdx i q 1).val = (i 1).val := by
  unfold DotDims.lhsIdx
  rw [dif_neg (show ¬(1 : Fin S1x1x4096.rank) ∈ D2.lhsBatch by decide), dif_pos (show (1 : Fin S1x1x4096.rank) ∈ D2.lhsNonContracting by decide)]
  rfl
theorem d2_lhs2 (i : S1x1x1024.Idx) (q : D2.contr.Idx) : (D2.lhsIdx i q 2).val = (q ⟨0, by decide⟩).val :=
  D2.lhsIdx_val_of_single rfl i q
theorem d2_rhs0 (i : S1x1x1024.Idx) (q : D2.contr.Idx) : (D2.rhsIdx i q 0).val = (i 0).val := by
  unfold DotDims.rhsIdx
  rw [dif_pos (show (0 : Fin S1x4096x1024.rank) ∈ D2.rhsBatch by decide)]
  rfl
theorem d2_rhs1 (i : S1x1x1024.Idx) (q : D2.contr.Idx) : (D2.rhsIdx i q 1).val = (q ⟨0, by decide⟩).val :=
  D2.rhsIdx_val_of_single rfl i q
theorem d2_rhs2 (i : S1x1x1024.Idx) (q : D2.contr.Idx) : (D2.rhsIdx i q 2).val = (i 2).val := by
  unfold DotDims.rhsIdx
  rw [dif_neg (show ¬(2 : Fin S1x4096x1024.rank) ∈ D2.rhsBatch by decide), dif_pos (show (2 : Fin S1x4096x1024.rank) ∈ D2.rhsNonContracting by decide)]
  rfl

/-! ## The non-pointwise operations at the block's coordinates -/

/-- The first product into zero at `(0, 0, s)`: the sum over the features of row times row. -/
theorem prod1_apply (x0 : FVec Ideal S1x1x1024 .f32) (x1 : FVec Ideal S1x4096x1024 .f32) (s : Fin 4096) :
    matmul D1 none x0 x1 (constant (F := Ideal) S1x1x4096 .f32 0x00000000#32) (ix3 0 0 s)
      = ∑ k : Fin 1024, x0 (ix3 0 0 k) * x1 (ix3 0 s k) := by
  refine (Ideal.matmul_constant_zero_apply D1 none x0 x1 (ix3 0 0 s)).trans ?_
  rw [← Equiv.sum_comp (contrEquiv1 D1 1024 rfl rfl).symm]
  refine Finset.sum_congr rfl fun k _ => ?_
  have hk := contrEquiv1_symm_val D1 1024 rfl rfl k
  have el : D1.lhsIdx (ix3 0 0 s) ((contrEquiv1 D1 1024 rfl rfl).symm k) = ix3 0 0 k := funext fun a => Fin.ext (by
    match a with
    | ⟨0, _⟩ => exact d1_lhs0 _ _
    | ⟨1, _⟩ => exact d1_lhs1 _ _
    | ⟨2, _⟩ => exact (d1_lhs2 _ _).trans hk)
  have er : D1.rhsIdx (ix3 0 0 s) ((contrEquiv1 D1 1024 rfl rfl).symm k) = ix3 0 s k := funext fun a => Fin.ext (by
    match a with
    | ⟨0, _⟩ => exact d1_rhs0 _ _
    | ⟨1, _⟩ => exact d1_rhs1 _ _
    | ⟨2, _⟩ => exact (d1_rhs2 _ _).trans hk)
  rw [el, er]

/-- The second product into zero at `(0, 0, h)`: the sum over the positions of weight times context entry. -/
theorem prod2_apply (p : FVec Ideal S1x1x4096 .f32) (x1 : FVec Ideal S1x4096x1024 .f32) (h : Fin 1024) :
    matmul D2 none p x1 (constant (F := Ideal) S1x1x1024 .f32 0x00000000#32) (ix3 0 0 h)
      = ∑ k : Fin 4096, p (ix3 0 0 k) * x1 (ix3 0 k h) := by
  refine (Ideal.matmul_constant_zero_apply D2 none p x1 (ix3 0 0 h)).trans ?_
  rw [← Equiv.sum_comp (contrEquiv1 D2 4096 rfl rfl).symm]
  refine Finset.sum_congr rfl fun k _ => ?_
  have hk := contrEquiv1_symm_val D2 4096 rfl rfl k
  have el : D2.lhsIdx (ix3 0 0 h) ((contrEquiv1 D2 4096 rfl rfl).symm k) = ix3 0 0 k := funext fun a => Fin.ext (by
    match a with
    | ⟨0, _⟩ => exact d2_lhs0 _ _
    | ⟨1, _⟩ => exact d2_lhs1 _ _
    | ⟨2, _⟩ => exact (d2_lhs2 _ _).trans hk)
  have er : D2.rhsIdx (ix3 0 0 h) ((contrEquiv1 D2 4096 rfl rfl).symm k) = ix3 0 k h := funext fun a => Fin.ext (by
    match a with
    | ⟨0, _⟩ => exact d2_rhs0 _ _
    | ⟨1, _⟩ => exact (d2_rhs1 _ _).trans hk
    | ⟨2, _⟩ => exact d2_rhs2 _ _)
  rw [el, er]

/-- Position `k` inserted into the reduced index `(0, 0)` is `(0, 0, k)`. -/
theorem lift_blk (k : Fin 4096) : reduces_S1x1x4096_S1x1.lift (ix2 (0 : Fin 1) (0 : Fin 1)) k = ix3 0 0 k :=
  funext fun a => Fin.ext (by match a with | ⟨0, _⟩ => rfl | ⟨1, _⟩ => rfl | ⟨2, _⟩ => rfl)

/-- The maximum over the positions, from `-∞`: the fold of `max` over them. -/
theorem rowmax_blk (v : FVec Ideal S1x1x4096 .f32) :
    multiReduction .maximumf [2] S1x1 v 0xFF800000#32 reduces_S1x1x4096_S1x1 (.inl rfl) rfl (ix2 0 0)
      = (Finset.univ : Finset (Fin 4096)).fold max negInf (fun s => v (ix3 0 0 s)) := by
  refine (Ideal.multiReduction_maximumf_single v 0xFF800000#32 reduces_S1x1x4096_S1x1 (.inl rfl) rfl (ix2 0 0)).trans ?_
  have hf : (v ∘ reduces_S1x1x4096_S1x1.lift (ix2 0 0)) = fun s : Fin 4096 => v (ix3 0 0 s) :=
    funext fun k => congrArg v (lift_blk k)
  rw [hf]
  rfl

/-- The sum over the positions. -/
theorem rowsum_blk (v : FVec Ideal S1x1x4096 .f32) :
    multiReduction .add [2] S1x1 v 0x00000000#32 reduces_S1x1x4096_S1x1 (.inl rfl) rfl (ix2 0 0)
      = ∑ s : Fin 4096, v (ix3 0 0 s) := by
  refine (Ideal.multiReduction_add_single v 0x00000000#32 reduces_S1x1x4096_S1x1 (.inl rfl) rfl (ix2 0 0)).trans ?_
  exact Finset.sum_congr rfl fun k _ => congrArg v (lift_blk k)

/-- A [1, 1] value reshaped to [1, 1, 1] and broadcast along the positions reads the value back. -/
theorem keep_blk (v : FVec Ideal S1x1 .f32) (s : Fin 4096) :
    broadcastTo S1x1x4096 (shapeCast S1x1x1 v shapeCasts_S1x1_S1x1x1) broadcasts_S1x1x1_S1x1x4096 (ix3 0 0 s) = v (ix2 0 0) := by
  refine (broadcastTo_apply _ broadcasts_S1x1x1_S1x1x4096 (ix3 0 0 s) (ix3 0 0 0) (fun a => by
    match a with | ⟨0, _⟩ => rfl | ⟨1, _⟩ => rfl | ⟨2, _⟩ => rfl)).trans ?_
  exact shapeCast_apply v shapeCasts_S1x1_S1x1x1 (ix3 0 0 0) (ix2 0 0) rfl

/-! ## The body's stages -/

variable (x0 : FVec Ideal S1x1x1024 .f32) (x1 : FVec Ideal S1x4096x1024 .f32)

/-- The block's query row. -/
def bq : Fin 1024 → EReal := fun h => x0 (ix3 0 0 h)
/-- The block's context matrix. -/
def bc : Fin 4096 → Fin 1024 → EReal := fun s h => x1 (ix3 0 s h)

/-- The scores. -/
def bScores : FVec Ideal S1x1x4096 .f32 := matmul D1 none x0 x1 (constant S1x1x4096 .f32 0x00000000#32)
/-- Their maximum, as a [1, 1] value. -/
def bTop : FVec Ideal S1x1 .f32 :=
  maximumf (broadcast S1x1 (Scalar.ofBits (F := Ideal) .f32 0xFF800000#32))
    (multiReduction .maximumf [2] S1x1 (bScores x0 x1) 0xFF800000#32 reduces_S1x1x4096_S1x1 (.inl rfl) rfl)
/-- The exponentials. -/
def bEx : FVec Ideal S1x1x4096 .f32 :=
  exp (subf (bScores x0 x1)
    (broadcastTo S1x1x4096 (shapeCast S1x1x1 (bTop x0 x1) shapeCasts_S1x1_S1x1x1) broadcasts_S1x1x1_S1x1x4096))
/-- Their sum, as a [1, 1] value. -/
def bDen : FVec Ideal S1x1 .f32 :=
  multiReduction .add [2] S1x1 (bEx x0 x1) 0x00000000#32 reduces_S1x1x4096_S1x1 (.inl rfl) rfl

/-- The stored block of weights is the quotient of these stages. -/
theorem pay1_eq : k0_pay1 (F := Ideal) x0 x1
    = divf (bEx x0 x1) (broadcastTo S1x1x4096 (shapeCast S1x1x1 (bDen x0 x1) shapeCasts_S1x1_S1x1x1) broadcasts_S1x1x1_S1x1x4096) := rfl

theorem bScores_apply (s : Fin 4096) : bScores x0 x1 (ix3 0 0 s) = score (bq x0) (bc x1) s :=
  prod1_apply x0 x1 s

theorem bTop_apply : bTop x0 x1 (ix2 0 0) = top (bq x0) (bc x1) :=
  congrArg (max negInf) ((rowmax_blk (bScores x0 x1)).trans
    (congrArg (fun f => (Finset.univ : Finset (Fin 4096)).fold max negInf f) (funext fun s => bScores_apply x0 x1 s)))

theorem bEx_apply (s : Fin 4096) : bEx x0 x1 (ix3 0 0 s) = ex (bq x0) (bc x1) s := by
  unfold bEx ex
  show Ideal.exp (bScores x0 x1 (ix3 0 0 s)
    - broadcastTo S1x1x4096 (shapeCast S1x1x1 (bTop x0 x1) shapeCasts_S1x1_S1x1x1) broadcasts_S1x1x1_S1x1x4096 (ix3 0 0 s)) = _
  rw [keep_blk, bScores_apply, bTop_apply]

theorem bDen_apply : bDen x0 x1 (ix2 0 0) = den (bq x0) (bc x1) :=
  (rowsum_blk (bEx x0 x1)).trans (Finset.sum_congr rfl fun k _ => bEx_apply x0 x1 k)

/-- THE WEIGHTS' BLOCK at `(0, 0, s)`: the softmax weight of position `s`. -/
theorem pay1_apply (s : Fin 4096) : k0_pay1 (F := Ideal) x0 x1 (ix3 0 0 s) = weight (bq x0) (bc x1) s := by
  rw [pay1_eq]
  unfold weight
  show Ideal.div (bEx x0 x1 (ix3 0 0 s))
    (broadcastTo S1x1x4096 (shapeCast S1x1x1 (bDen x0 x1) shapeCasts_S1x1_S1x1x1) broadcasts_S1x1x1_S1x1x4096 (ix3 0 0 s)) = _
  rw [keep_blk, bEx_apply, bDen_apply]

/-- THE OUTPUTS' BLOCK at `(0, 0, h)`: column `h` of the weighted sum of the context's rows, through `tanh`. -/
theorem pay2_apply (h : Fin 1024) : k0_pay2 (F := Ideal) x0 x1 (ix3 0 0 h) = mix (bq x0) (bc x1) h := by
  show Ideal.tanh (matmul D2 none (k0_pay1 (F := Ideal) x0 x1) x1 (constant (F := Ideal) S1x1x1024 .f32 0x00000000#32) (ix3 0 0 h)) = _
  unfold mix
  refine congrArg Ideal.tanh ((prod2_apply (k0_pay1 (F := Ideal) x0 x1) x1 h).trans (Finset.sum_congr rfl fun k _ => ?_))
  rw [pay1_apply]
  rfl

end Cert.KernelIdeal.Block

end
-- ==== Proof.KernelArray.lean ====
/-
  From blocks to whole arrays.

  The grid has one point per batch: at point `t` each of the four windows sits at block `(t, 0, 0)`, so the query
  block is batch `t`'s row, the context block batch `t`'s matrix, and the two result blocks are batch `t` of the
  result arrays. What a point writes back is therefore batch `t` of `Cert.Attn.outArr` / `attnArr` of the argument
  arrays; every index of a result array lies in the block of the point its batch coordinate names, so after the
  run each result array IS that function of the arguments.
-/
import proofs.«153136_j1580547970581_2_alg».proof.Proof.Gen.KernelIdeal.Value
import proofs.«153136_j1580547970581_2_alg».proof.Proof.KernelBlock
import Idealize.ShloMosaic.Lib.Pipeline.Value

noncomputable section

namespace Cert.KernelIdeal.Whole

open Cert.KernelIdeal Cert.KernelIdeal.Gen Cert.KernelIdeal.Value Cert.KernelIdeal.Block Cert.Attn
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The query array as launched. -/
abbrev Q (c : Dev nD) : S32x1x1024.Idx → EReal := m ((c : Thread nD τ).loc main_arg0)
/-- The context array as launched. -/
abbrev C (c : Dev nD) : S32x4096x1024.Idx → EReal := m ((c : Thread nD τ).loc main_arg1)

theorem hz : (![0, 0, 0] : Fin 3 → Nat) = fun _ => 0 := funext fun a => by fin_cases a <;> rfl

/-- The batch a grid point works on. -/
abbrev batch (t : Fin cfg0.N) : Fin 32 := t.cast N_0

/-- Every window's block index at point `t` is `(t, 0, 0)` (decided over the 32 points). -/
theorem idx_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0) :=
  (by decide +kernel : ∀ t : Fin grid0.N, _)

/-! ## The input blocks -/

/-- The query block at point `t` is batch `t`'s row. -/
theorem blkQ (c : Dev nD) (t : Fin cfg0.N) (h : Fin 1024) :
    (iblk m c 0 t : Vec Ideal S1x1x1024 .f32) (ix3 0 0 h) = Q m c (ix3 (batch t) 0 h) := by
  obtain ⟨⟨e0, e1, e2⟩, -⟩ := idx_facts t
  unfold iblk
  rw [View.read_apply]
  show m ((c : Thread nD τ).loc main_arg0) _ = m ((c : Thread nD τ).loc main_arg0) _
  congr 1
  funext a
  apply Fin.ext
  match a with
  | ⟨0, _⟩ => show win0_0.index t (0 : Fin 3) * 1 + 1 * 0 = t.val; omega
  | ⟨1, _⟩ => show win0_0.index t (1 : Fin 3) * 1 + 1 * 0 = 0; omega
  | ⟨2, _⟩ => show win0_0.index t (2 : Fin 3) * 1024 + 1 * h.val = h.val; omega

/-- The context block at point `t` is batch `t`'s matrix. -/
theorem blkC (c : Dev nD) (t : Fin cfg0.N) (s : Fin 4096) (h : Fin 1024) :
    (iblk m c 1 t : Vec Ideal S1x4096x1024 .f32) (ix3 0 s h) = C m c (ix3 (batch t) s h) := by
  obtain ⟨-, ⟨e0, e1, e2⟩, -⟩ := idx_facts t
  unfold iblk
  rw [View.read_apply]
  show m ((c : Thread nD τ).loc main_arg1) _ = m ((c : Thread nD τ).loc main_arg1) _
  congr 1
  funext a
  apply Fin.ext
  match a with
  | ⟨0, _⟩ => show win0_1.index t (0 : Fin 3) * 1 + 1 * 0 = t.val; omega
  | ⟨1, _⟩ => show win0_1.index t (1 : Fin 3) * 4096 + 1 * s.val = s.val; omega
  | ⟨2, _⟩ => show win0_1.index t (2 : Fin 3) * 1024 + 1 * h.val = h.val; omega

theorem bq_iblk (c : Dev nD) (t : Fin cfg0.N) :
    bq (iblk m c 0 t : Vec Ideal S1x1x1024 .f32) = qRow (Q m c) (batch t) :=
  funext fun h => blkQ m c t h

theorem bc_iblk (c : Dev nD) (t : Fin cfg0.N) :
    bc (iblk m c 1 t : Vec Ideal S1x4096x1024 .f32) = cMat (C m c) (batch t) :=
  funext fun s => funext fun h => blkC m c t s h

/-! ## Functions on a result block are determined at the coordinates `(0, 0, ·)` -/

theorem ext_blkA {P R : S1x1x4096.Idx → EReal} (h : ∀ s : Fin 4096, P (ix3 0 0 s) = R (ix3 0 0 s)) : P = R := by
  funext y
  obtain ⟨z0, z1, s, rfl⟩ : ∃ (z0 : Fin 1) (z1 : Fin 1) (s : Fin 4096), y = ix3 z0 z1 s := ⟨y 0, y 1, y 2, eq_ix3 y⟩
  obtain rfl : z0 = 0 := Subsingleton.elim _ _
  obtain rfl : z1 = 0 := Subsingleton.elim _ _
  exact h s

theorem ext_blkO {P R : S1x1x1024.Idx → EReal} (h : ∀ k : Fin 1024, P (ix3 0 0 k) = R (ix3 0 0 k)) : P = R := by
  funext y
  obtain ⟨z0, z1, k, rfl⟩ : ∃ (z0 : Fin 1) (z1 : Fin 1) (k : Fin 1024), y = ix3 z0 z1 k := ⟨y 0, y 1, y 2, eq_ix3 y⟩
  obtain rfl : z0 = 0 := Subsingleton.elim _ _
  obtain rfl : z1 = 0 := Subsingleton.elim _ _
  exact h k

/-! ## The attention weights (output window 3) -/

/-- WHAT POINT `t` WRITES BACK to the weights' array is batch `t` of `attnArr` of the arguments. -/
theorem flushed3_eq (c : Dev nD) (t : Fin cfg0.N) :
    (dats m 0 c).flushed 3 t = ((cfg0.win 3).blk t).view.read (Elt Ideal) (attnArr (Q m c) (C m c)) := by
  rw [flushed3]
  unfold out0_3
  rw [View.canon_unit_zero hz]
  simp only [View.ld_unit_zero (S := S1x1x1024) hz, View.ld_unit_zero (S := S1x4096x1024) hz]
  obtain ⟨-, -, -, ⟨e0, e1, e2⟩⟩ := idx_facts t
  refine ext_blkA fun s => ?_
  show k0_pay1 (F := Ideal) (iblk m c 0 t) (iblk m c 1 t) (ix3 0 0 s)
    = attnArr (Q m c) (C m c) (((cfg0.win 3).blk t).view.emb (ix3 0 0 s))
  refine (pay1_apply (iblk m c 0 t) (iblk m c 1 t) s).trans ?_
  have hemb : ((cfg0.win 3).blk t).view.emb (ix3 0 0 s) = ix3 (batch t) 0 s := funext fun a => Fin.ext (by
    match a with
    | ⟨0, _⟩ => show win0_3.index t (0 : Fin 3) * 1 + 1 * 0 = t.val; omega
    | ⟨1, _⟩ => show win0_3.index t (1 : Fin 3) * 1 + 1 * 0 = 0; omega
    | ⟨2, _⟩ => show win0_3.index t (2 : Fin 3) * 4096 + 1 * s.val = s.val; omega)
  rw [hemb, attnArr_ix3, bq_iblk, bc_iblk]

/-- An index of the weights' array is in point `t`'s block iff each coordinate is in the block's range on its axis. -/
theorem mem_blk3 (t : Fin cfg0.N) (i : S32x1x4096.Idx) :
    i ∈ ((cfg0.win 3).blk t).view.set ↔ ∀ a : Fin 3, win0_3.index t a * S1x1x4096.size a ≤ (i a).val ∧ (i a).val < win0_3.index t a * S1x1x4096.size a + S1x1x4096.size a := by
  show i ∈ ((View.whole main_v0_1).slice (win0_3.rect t)).set ↔ _
  rw [View.set_slice_whole, Rect.mem_set_unit]
  exact Iff.rfl

/-- Every index of the weights' array is in the block of the point its batch coordinate names. -/
theorem cover3 (i : S32x1x4096.Idx) : ∃ t : Fin cfg0.N, (cfg0.win 3).flush t = true ∧ i ∈ ((cfg0.win 3).blk t).view.set := by
  have hi0 : (i 0).val < 32 := (i 0).isLt
  have hi1 : (i 1).val < 1 := (i 1).isLt
  have hi2 : (i 2).val < 4096 := (i 2).isLt
  have hN : cfg0.N = 32 := N_0
  refine ⟨⟨(i 0).val, by rw [hN]; exact hi0⟩, flush0_3 _, ?_⟩
  obtain ⟨-, -, -, ⟨e0, e1, e2⟩⟩ := idx_facts ⟨(i 0).val, by rw [hN]; exact hi0⟩
  rw [mem_blk3]
  intro a
  match a with
  | ⟨0, _⟩ => show win0_3.index _ (0 : Fin 3) * 1 ≤ (i 0).val ∧ (i 0).val < win0_3.index _ (0 : Fin 3) * 1 + 1; rw [e0]; show (i 0).val * 1 ≤ (i 0).val ∧ (i 0).val < (i 0).val * 1 + 1; omega
  | ⟨1, _⟩ => show win0_3.index _ (1 : Fin 3) * 1 ≤ (i 1).val ∧ (i 1).val < win0_3.index _ (1 : Fin 3) * 1 + 1; rw [e1]; omega
  | ⟨2, _⟩ => show win0_3.index _ (2 : Fin 3) * 4096 ≤ (i 2).val ∧ (i 2).val < win0_3.index _ (2 : Fin 3) * 4096 + 4096; rw [e2]; omega

/-- THE WEIGHTS' ARRAY after the run. -/
theorem final3 (c : Dev nD) : (dats m 0 c).arrAt 3 cfg0.N = attnArr (Q m c) (C m c) :=
  (dats m 0 c).arrAt_eq_of_cover 3 (attnArr (Q m c) (C m c)) (fun t _ => flushed3_eq m c t) cover3

/-! ## The attended outputs (output window 2) -/

/-- WHAT POINT `t` WRITES BACK to the outputs' array is batch `t` of `outArr` of the arguments. -/
theorem flushed2_eq (c : Dev nD) (t : Fin cfg0.N) :
    (dats m 0 c).flushed 2 t = ((cfg0.win 2).blk t).view.read (Elt Ideal) (outArr (Q m c) (C m c)) := by
  rw [flushed2]
  unfold out0_2
  rw [View.canon_unit_zero hz]
  simp only [View.ld_unit_zero (S := S1x1x1024) hz, View.ld_unit_zero (S := S1x4096x1024) hz]
  obtain ⟨-, -, ⟨e0, e1, e2⟩, -⟩ := idx_facts t
  refine ext_blkO fun k => ?_
  show k0_pay2 (F := Ideal) (iblk m c 0 t) (iblk m c 1 t) (ix3 0 0 k)
    = outArr (Q m c) (C m c) (((cfg0.win 2).blk t).view.emb (ix3 0 0 k))
  refine (pay2_apply (iblk m c 0 t) (iblk m c 1 t) k).trans ?_
  have hemb : ((cfg0.win 2).blk t).view.emb (ix3 0 0 k) = ix3 (batch t) 0 k := funext fun a => Fin.ext (by
    match a with
    | ⟨0, _⟩ => show win0_2.index t (0 : Fin 3) * 1 + 1 * 0 = t.val; omega
    | ⟨1, _⟩ => show win0_2.index t (1 : Fin 3) * 1 + 1 * 0 = 0; omega
    | ⟨2, _⟩ => show win0_2.index t (2 : Fin 3) * 1024 + 1 * k.val = k.val; omega)
  rw [hemb, outArr_ix3, bq_iblk, bc_iblk]

/-- An index of the outputs' array is in point `t`'s block iff each coordinate is in the block's range on its axis. -/
theorem mem_blk2 (t : Fin cfg0.N) (i : S32x1x1024.Idx) :
    i ∈ ((cfg0.win 2).blk t).view.set ↔ ∀ a : Fin 3, win0_2.index t a * S1x1x1024.size a ≤ (i a).val ∧ (i a).val < win0_2.index t a * S1x1x1024.size a + S1x1x1024.size a := by
  show i ∈ ((View.whole main_v0_0).slice (win0_2.rect t)).set ↔ _
  rw [View.set_slice_whole, Rect.mem_set_unit]
  exact Iff.rfl

/-- Every index of the outputs' array is in the block of the point its batch coordinate names. -/
theorem cover2 (i : S32x1x1024.Idx) : ∃ t : Fin cfg0.N, (cfg0.win 2).flush t = true ∧ i ∈ ((cfg0.win 2).blk t).view.set := by
  have hi0 : (i 0).val < 32 := (i 0).isLt
  have hi1 : (i 1).val < 1 := (i 1).isLt
  have hi2 : (i 2).val < 1024 := (i 2).isLt
  have hN : cfg0.N = 32 := N_0
  refine ⟨⟨(i 0).val, by rw [hN]; exact hi0⟩, flush0_2 _, ?_⟩
  obtain ⟨-, -, ⟨e0, e1, e2⟩, -⟩ := idx_facts ⟨(i 0).val, by rw [hN]; exact hi0⟩
  rw [mem_blk2]
  intro a
  match a with
  | ⟨0, _⟩ => show win0_2.index _ (0 : Fin 3) * 1 ≤ (i 0).val ∧ (i 0).val < win0_2.index _ (0 : Fin 3) * 1 + 1; rw [e0]; show (i 0).val * 1 ≤ (i 0).val ∧ (i 0).val < (i 0).val * 1 + 1; omega
  | ⟨1, _⟩ => show win0_2.index _ (1 : Fin 3) * 1 ≤ (i 1).val ∧ (i 1).val < win0_2.index _ (1 : Fin 3) * 1 + 1; rw [e1]; omega
  | ⟨2, _⟩ => show win0_2.index _ (2 : Fin 3) * 1024 ≤ (i 2).val ∧ (i 2).val < win0_2.index _ (2 : Fin 3) * 1024 + 1024; rw [e2]; omega

/-- THE OUTPUTS' ARRAY after the run. -/
theorem final2 (c : Dev nD) : (dats m 0 c).arrAt 2 cfg0.N = outArr (Q m c) (C m c) :=
  (dats m 0 c).arrAt_eq_of_cover 2 (outArr (Q m c) (C m c)) (fun t _ => flushed2_eq m c t) cover2

/-! ## The run, read -/

/-- Every weakly fair execution of the kernel's program ends with the two result arrays at `outArr` and `attnArr` of
    the argument arrays, the arguments unchanged. -/
theorem run : θ_run defs (onTc (τ := τ) (main (F := Ideal))) ⟨m, fun _ => 0, ρ⟩ fun r => ∀ c : Dev nD,
      r.2.mem ((c : Thread nD τ).loc main_v0_0) = outArr (Q m c) (C m c)
      ∧ r.2.mem ((c : Thread nD τ).loc main_v0_1) = attnArr (Q m c) (C m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final2 m c), (h c).2.1.trans (final3 m c), (h c).2.2.1, (h c).2.2.2⟩)
    (run_blocks m ρ)

end Cert.KernelIdeal.Whole

end
-- ==== Proof.RefRows.lean ====
/-
  The reference, read batch by batch.

  The host program computes, over whole arrays, the scores (a `dot_general` contracting the feature axis), their
  maximum over the context positions (a `reduce` by `maximum` from `-∞`, and one more `maximum` against `-∞`), the
  exponentials of the differences, their sum (a `reduce` by `add` from `0`), the quotients, the second
  `dot_general` (contracting the context positions) and `tanh`. Read at the coordinates `(b, 0, ·)` of a batch `b`
  each stage is the corresponding term of `Cert.Attn` of that batch's query row and context matrix:
  a sum over a contracted axis is the sum over its coordinates, a maximum over an axis the fold of `max` over
  its coordinates, a keep-dimension broadcast reads the reduced value back at `(b, 0)`, and the host's
  `exp`, `tanh` and quotient are the kernel's at the extended reals.
-/
import proofs.«153136_j1580547970581_2_alg».proof.Proof.Gen.ReferenceIdeal.Read
import proofs.«153136_j1580547970581_2_alg».proof.Proof.Softmax
import Idealize.ShloMosaic.PureOps.Ideal.Laws
import Idealize.ShloMosaic.Lib.ValueIdx

noncomputable section

namespace Cert.ReferenceIdeal.RefValue

open Cert.ReferenceIdeal Cert.ReferenceIdeal.Gen Cert.ReferenceIdeal.Read Cert.Attn
open Idealize.ShloMosaic Idealize.ShloMosaic.ValueIdx

variable (q : S32x1x1024.Idx → EReal) (ctx : S32x4096x1024.Idx → EReal)

/-! ## The indices the stages read, at a batch's coordinates -/

theorem lidx0 (b : Fin 32) (s : Fin 4096) (k : Fin 1024) : lidx_main_v0 (ix3 b (0 : Fin 1) s) k = ix3 b 0 k :=
  funext fun a => Fin.ext (by match a with | ⟨0, _⟩ => rfl | ⟨1, _⟩ => rfl | ⟨2, _⟩ => rfl)

theorem ridx0 (b : Fin 32) (s : Fin 4096) (k : Fin 1024) : ridx_main_v0 (ix3 b (0 : Fin 1) s) k = ix3 b s k :=
  funext fun a => Fin.ext (by match a with | ⟨0, _⟩ => rfl | ⟨1, _⟩ => rfl | ⟨2, _⟩ => rfl)

theorem idx45 (b : Fin 32) (s : Fin 4096) : idx_main_v4 (idx_main_v5 (ix3 b (0 : Fin 1) s)) = ix2 b 0 :=
  funext fun a => Fin.ext (by match a with | ⟨0, _⟩ => rfl | ⟨1, _⟩ => rfl)

theorem idx910 (b : Fin 32) (s : Fin 4096) : idx_main_v9 (idx_main_v10 (ix3 b (0 : Fin 1) s)) = ix2 b 0 :=
  funext fun a => Fin.ext (by match a with | ⟨0, _⟩ => rfl | ⟨1, _⟩ => rfl)

theorem idx8 (b : Fin 32) (k : Fin 4096) : idx_main_v8 (ix2 b (0 : Fin 1)) k = ix3 b 0 k :=
  funext fun a => Fin.ext (by match a with | ⟨0, _⟩ => rfl | ⟨1, _⟩ => rfl | ⟨2, _⟩ => rfl)

theorem lidx12 (b : Fin 32) (h : Fin 1024) (k : Fin 4096) : lidx_main_v12 (ix3 b (0 : Fin 1) h) k = ix3 b 0 k :=
  funext fun a => Fin.ext (by match a with | ⟨0, _⟩ => rfl | ⟨1, _⟩ => rfl | ⟨2, _⟩ => rfl)

theorem ridx12 (b : Fin 32) (h : Fin 1024) (k : Fin 4096) : ridx_main_v12 (ix3 b (0 : Fin 1) h) k = ix3 b k h :=
  funext fun a => Fin.ext (by match a with | ⟨0, _⟩ => rfl | ⟨1, _⟩ => rfl | ⟨2, _⟩ => rfl)

/-- The context positions are the one reduced axis of the score array. -/
theorem red : S32x1x4096.Reduces [2] S32x1 := by decide

/-- Position `k` inserted into `(b, 0)` is `(b, 0, k)`. -/
theorem lift_red (b : Fin 32) (k : Fin 4096) : red.lift (ix2 b (0 : Fin 1)) k = ix3 b 0 k :=
  funext fun a => Fin.ext (by match a with | ⟨0, _⟩ => rfl | ⟨1, _⟩ => rfl | ⟨2, _⟩ => rfl)

/-! ## The stages -/

/-- The first `dot_general` at `(b, 0, s)`: the query row of batch `b` against row `s` of its context. -/
theorem scores_apply (b : Fin 32) (s : Fin 4096) :
    val_main_v0 (F := Ideal) q ctx (ix3 b 0 s) = score (qRow q b) (cMat ctx b) s := by
  rw [val_main_v0_apply]
  unfold score qRow cMat
  refine Finset.sum_congr rfl fun k _ => ?_
  rw [lidx0, ridx0]

/-- The `reduce` by `maximum` at `(b, 0)`: the fold of `max` from `-∞` over batch `b`'s scores. -/
theorem rowmax_apply (b : Fin 32) :
    val_main_v1 (F := Ideal) q ctx (ix2 b 0)
      = (Finset.univ : Finset (Fin 4096)).fold max negInf (score (qRow q b) (cMat ctx b)) := by
  unfold val_main_v1
  refine (Host.reduce_eq_fold_single (FloatOps.maximumf (F := Ideal) (φ := .f32)) (val_main_v0 (F := Ideal) q ctx)
    (val_main_cst (F := Ideal)) reducesTo_S32x1x4096_S32x1_d2 red h_S_ (ix2 b 0)).trans ?_
  have hf : (val_main_v0 (F := Ideal) q ctx ∘ red.lift (ix2 b 0)) = score (qRow q b) (cMat ctx b) :=
    funext fun k => (congrArg (val_main_v0 (F := Ideal) q ctx) (lift_red b k)).trans (scores_apply q ctx b k)
  rw [hf]
  rfl

/-- The exponentials at `(b, 0, s)`. -/
theorem ex_apply (b : Fin 32) (s : Fin 4096) :
    val_main_v7 (F := Ideal) q ctx (ix3 b 0 s) = ex (qRow q b) (cMat ctx b) s := by
  rw [val_main_v7_apply, val_main_v6_apply, scores_apply, val_main_v5_apply, val_main_v4_apply, val_main_v3_apply,
    idx45, val_main_v2_apply, val_main_cst_0_apply, rowmax_apply]
  rfl

/-- The `reduce` by `add` at `(b, 0)`: the sum of batch `b`'s exponentials (the initial value is `0`). -/
theorem den_apply (b : Fin 32) : val_main_v8 (F := Ideal) q ctx (ix2 b 0) = den (qRow q b) (cMat ctx b) := by
  rw [val_main_v8_apply, val_main_cst_1_apply]
  show Ideal.ofBits .f32 0x00000000#32 + _ = _
  rw [Ideal.ofBits_zero_f32, zero_add]
  unfold den
  refine Finset.sum_congr rfl fun k _ => ?_
  rw [idx8, ex_apply]

/-- The quotients at `(b, 0, s)`: the softmax weights of batch `b`. -/
theorem weight_apply (b : Fin 32) (s : Fin 4096) :
    val_main_v11 (F := Ideal) q ctx (ix3 b 0 s) = weight (qRow q b) (cMat ctx b) s := by
  rw [val_main_v11_apply, ex_apply, val_main_v10_apply, val_main_v9_apply, idx910, den_apply]
  rfl

/-- The second `dot_general` and `tanh` at `(b, 0, h)`. -/
theorem mix_apply (b : Fin 32) (h : Fin 1024) :
    val_main_v13 (F := Ideal) q ctx (ix3 b 0 h) = mix (qRow q b) (cMat ctx b) h := by
  rw [val_main_v13_apply, val_main_v12_apply]
  show Ideal.tanh _ = _
  unfold mix
  refine congrArg Ideal.tanh (Finset.sum_congr rfl fun k _ => ?_)
  rw [lidx12, ridx12, weight_apply]
  rfl

/-! ## The whole arrays -/

/-- The reference's second result is the array of attention weights. -/
theorem ref_attn : val_main_v11 (F := Ideal) q ctx = attnArr q ctx := by
  funext i
  obtain ⟨b, z, s, rfl⟩ : ∃ (b : Fin 32) (z : Fin 1) (s : Fin 4096), i = ix3 b z s := ⟨i 0, i 1, i 2, eq_ix3 i⟩
  obtain rfl : z = 0 := Subsingleton.elim _ _
  exact weight_apply q ctx b s

/-- The reference's first result is the array of attended outputs. -/
theorem ref_out : val_main_v13 (F := Ideal) q ctx = outArr q ctx := by
  funext i
  obtain ⟨b, z, h, rfl⟩ : ∃ (b : Fin 32) (z : Fin 1) (h : Fin 1024), i = ix3 b z h := ⟨i 0, i 1, i 2, eq_ix3 i⟩
  obtain rfl : z = 0 := Subsingleton.elim _ _
  exact mix_apply q ctx b h

end Cert.ReferenceIdeal.RefValue

end
-- ==== Proof.lean ====
/-
  Single-query attention, one batch per grid point: for each of the 32 batches the kernel takes the query row
  `q_b` (1024 features) and the context matrix `C_b` (4096 rows of 1024 features) and returns

      weights_b = softmax_s (q_b · C_b[s])          (4096 weights)
      out_b     = tanh (∑_s weights_b[s] · C_b[s])  (1024 features),

  the softmax taken as `exp (score - max score) / ∑ exp (score - max score)`. The jnp reference computes the same
  two arrays for all batches at once with two `einsum`s around `jax.nn.softmax`.

  At the extended reals both programs are, batch by batch, the SAME term (`Cert.Attn`, Proof/Softmax.lean): the
  kernel's matrix products into a zero accumulator and the host's `dot_general`s are the plain sums over the
  contracted coordinate, its lane reductions and the host's `reduce`s the fold of `max` from `-∞` and the sum over
  the positions, and `exp`, the quotient and `tanh` are one function on both sides. No law of arithmetic is used
  beyond `0 + x = x` for the host's sum started at zero, so the precondition (finite inputs) is never opened.

  Proof/KernelBlock.lean reads the kernel body's two stored values at a block's coordinates; Proof/KernelArray.lean
  puts the 32 blocks together into the two result arrays (over the generated frame run with its output arrays named);
  Proof/RefRows.lean reads the reference's stages (over its generated run, one operation at a time) at a batch's
  coordinates. Here: the three frames from the generated runs, the (empty) idealization ledger, and the two runs
  set side by side.
-/
import proofs.«153136_j1580547970581_2_alg».proof.Defs
import proofs.«153136_j1580547970581_2_alg».proof.Proof.Gen.Kernel
import proofs.«153136_j1580547970581_2_alg».proof.Proof.Gen.Kernel.Skeleton
import proofs.«153136_j1580547970581_2_alg».proof.Proof.Gen.Kernel.Launch
import proofs.«153136_j1580547970581_2_alg».proof.Proof.Gen.Kernel.Points
import proofs.«153136_j1580547970581_2_alg».proof.Proof.Gen.Kernel.Frame
import proofs.«153136_j1580547970581_2_alg».proof.Proof.Gen.KernelIdeal
import proofs.«153136_j1580547970581_2_alg».proof.Proof.Gen.KernelIdeal.Skeleton
import proofs.«153136_j1580547970581_2_alg».proof.Proof.Gen.KernelIdeal.Launch
import proofs.«153136_j1580547970581_2_alg».proof.Proof.Gen.KernelIdeal.Points
import proofs.«153136_j1580547970581_2_alg».proof.Proof.Gen.KernelIdeal.Frame
import proofs.«153136_j1580547970581_2_alg».proof.Proof.Gen.ReferenceIdeal
import proofs.«153136_j1580547970581_2_alg».proof.Proof.Gen.Pre_finite_inputs
import proofs.«153136_j1580547970581_2_alg».proof.Proof.Gen.KernelIdeal.Value
import proofs.«153136_j1580547970581_2_alg».proof.Proof.Gen.ReferenceIdeal.Run
import proofs.«153136_j1580547970581_2_alg».proof.Proof.Gen.ReferenceIdeal.Read
import proofs.«153136_j1580547970581_2_alg».proof.Proof.KernelArray
import proofs.«153136_j1580547970581_2_alg».proof.Proof.RefRows
import Idealize.ShloMosaic.Adequacy
import Idealize.ShloMosaic.Init

noncomputable section

namespace Cert.Proof

open Idealize.ShloMosaic Idealize.ShloMosaic.TcCoe Idealize.SL.Sem Cert.Attn

/-- The word-level kernel runs and leaves its arguments as they were. -/
theorem frame_k : Cert.frame_Kernel := fun m ρ _ => Cert.Kernel.Gen.frame m ρ

/-- So does the kernel read at the extended reals. -/
theorem frame_ki : Cert.frame_KernelIdeal := fun m ρ _ => Cert.KernelIdeal.Gen.frame m ρ

/-- The reference's frame is its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealized kernel is the kernel's own text read at the extended reals: nothing was rewritten. -/
theorem preserves : Cert.preserves_Kernel_KernelIdeal := trivial

/-- From memories agreeing on the query and context arrays the kernel's result arrays end at `outArr` and `attnArr`
    of them (Proof/KernelArray.lean), and the reference's at its last stages, which are the same two functions
    (Proof/RefRows.lean). -/
theorem algebraic : Cert.algebraic_KernelIdeal_ReferenceIdeal := by
  intro m ρ m' ρ' _ hagree
  refine ⟨fun c => outArr (Cert.KernelIdeal.Whole.Q m c) (Cert.KernelIdeal.Whole.C m c),
    fun c => attnArr (Cert.KernelIdeal.Whole.Q m c) (Cert.KernelIdeal.Whole.C m c),
    Cert.KernelIdeal.Whole.run m ρ, ?_⟩
  refine (θ_run Cert.ReferenceIdeal.defs _ _).mono (fun _ h c => ⟨?_, ?_, (h c).2.2.1, (h c).2.2.2⟩)
    (Cert.ReferenceIdeal.Value.run (F := Ideal) m' ρ')
  · rw [(h c).1, Cert.ReferenceIdeal.Read.val_main_v13_eq, Cert.ReferenceIdeal.RefValue.ref_out, (hagree c).1, (hagree c).2]
  · rw [(h c).2.1, Cert.ReferenceIdeal.Read.val_main_v11_eq, Cert.ReferenceIdeal.RefValue.ref_attn, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
